-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x1024 : Shape := ⟨2, ![512, 1024]⟩
abbrev S512x1 : Shape := ⟨2, ![512, 1]⟩
abbrev S1x512 : Shape := ⟨2, ![1, 512]⟩
abbrev S512x512 : Shape := ⟨2, ![512, 512]⟩
abbrev S1024x512 : Shape := ⟨2, ![1024, 512]⟩

abbrev nBuf : Space → Nat
  | .hbm => 12
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x1024, .f32⟩
  | .hbm, ⟨10, _⟩ => ⟨S8192x1024, .bf16⟩
  | .hbm, ⟨11, _⟩ => ⟨S8192x8192, .f32⟩
  | .local _ .vmem, ⟨0, _⟩ => ⟨S512x1024, .f32⟩
  | .local _ .vmem, ⟨1, _⟩ => ⟨S512x1024, .f32⟩
  | .local _ .vmem, ⟨2, _⟩ => ⟨S8192x1024, .bf16⟩
  | .local _ .vmem, ⟨3, _⟩ => ⟨S512x1, .f32⟩
  | .local _ .vmem, ⟨4, _⟩ => ⟨S512x1, .f32⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x1024_S1024x512_S512x512_1_0_0_1_n_n_wf : DotDims.WF S512x1024 S1024x512 S512x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x1024.size a ≤ S8192x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1024.size a ≤ S8192x1024.size a
  hwx0_1 : ∀ i : grid0.Coords, EltTy.bits .bf16 = 32 ∨ (Rect.block (s := S8192x1024) S8192x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x8192.size a
  hwx0_4 : ∀ i : grid0.Coords, EltTy.bits .f32 = 32 ∨ (Rect.block (s := S8192x8192) S512x512.size (cc0_transform_4 i) (hinb0_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x8192, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.Spec.lean ====
/-
  The squared-Hellinger-style distance matrix of two families of 8192 rows of length 1024, as one function of the two
  arrays on the extended reals:

      D(p, q) = ½ · (Σ_k a(p,k) + Σ_k b(q,k)) − Σ_k √a(p,k) · √b(q,k).

  Both programs compute exactly this expression entry by entry: the row sums start from the zero word, the factor ½ is
  the same word on both sides, and the cross term is the inner product of the square-rooted rows. No law beyond reading
  each operation at an entry is needed, so no input has to be finite.
-/
import Idealize.ShloMosaic.PureOps.Ideal
import Idealize.ShloMosaic.Lib.ValueIdx

noncomputable section

open scoped BigOperators

namespace Cert.Hellinger

open Idealize.ShloMosaic Idealize.ShloMosaic.ValueIdx

/-- The two inputs' shape and the result's. -/
abbrev Rows : Shape := ⟨2, ![8192, 1024]⟩
abbrev Pairs : Shape := ⟨2, ![8192, 8192]⟩

/-- The sum of row `p`, started from the zero word. -/
def rowSum (x : Rows.Idx → EReal) (p : Fin 8192) : EReal :=
  Ideal.ofBits .f32 0x00000000#32 + ∑ k : Fin 1024, x (ix2 p k)

/-- The inner product of the square roots of row `p` of `a` and row `q` of `b`. -/
def cross (a b : Rows.Idx → EReal) (p q : Fin 8192) : EReal :=
  ∑ k : Fin 1024, Ideal.sqrt (a (ix2 p k)) * Ideal.sqrt (b (ix2 q k))

/-- Entry `(p, q)` of the distance matrix. -/
def entry (a b : Rows.Idx → EReal) (p q : Fin 8192) : EReal :=
  Ideal.ofBits .f32 0x3F000000#32 * (rowSum a p + rowSum b q) - cross a b p q

/-- The distance matrix. -/
def dist (a b : Rows.Idx → EReal) : Pairs.Idx → EReal := fun i => entry a b (i 0) (i 1)

theorem dist_ix2 (a b : Rows.Idx → EReal) (p q : Fin 8192) : dist a b (ix2 p q) = entry a b p q := rfl

end Cert.Hellinger

end
-- ==== Proof.RefSpec.lean ====
/-
  The reference program, read entry by entry, is the distance matrix of the specification: its row sums, broadcast as a
  column and as a row, are added and halved, and the contraction of the square-rooted inputs over their second axes is
  subtracted.
-/
import proofs.«170235_j18305150615591_2_alg».proof.Proof.Gen.ReferenceIdeal.Read
import proofs.«170235_j18305150615591_2_alg».proof.Proof.Spec

noncomputable section

open scoped BigOperators

namespace Cert.ReferenceIdeal.RefSpec

open Cert.ReferenceIdeal Cert.ReferenceIdeal.Gen Cert.ReferenceIdeal.Read Cert.Hellinger
open Idealize.ShloMosaic Idealize.ShloMosaic.ValueIdx

/-- Row `i 0` of the left operand of the contraction at column `k`. -/
theorem lidx_eq (i : S8192x8192.Idx) (k : Fin 1024) : lidx_main_v2 i k = ix2 (i 0) k :=
  funext fun a => Fin.ext (by match a with | ⟨0, _⟩ => rfl | ⟨1, _⟩ => rfl)

/-- Row `i 1` of the right operand of the contraction at column `k`. -/
theorem ridx_eq (i : S8192x8192.Idx) (k : Fin 1024) : ridx_main_v2 i k = ix2 (i 1) k :=
  funext fun a => Fin.ext (by match a with | ⟨0, _⟩ => rfl | ⟨1, _⟩ => rfl)

/-- The first row sum, through its column broadcast, reads row `i 0`. -/
theorem idx3_eq (i : S8192x8192.Idx) (k : Fin 1024) : idx_main_v3 (idx_main_v4 (idx_main_v7 i)) k = ix2 (i 0) k :=
  funext fun a => Fin.ext (by match a with | ⟨0, _⟩ => rfl | ⟨1, _⟩ => rfl)

/-- The second row sum, through its row broadcast, reads row `i 1`. -/
theorem idx5_eq (i : S8192x8192.Idx) (k : Fin 1024) : idx_main_v5 (idx_main_v6 (idx_main_v8 i)) k = ix2 (i 1) k :=
  funext fun a => Fin.ext (by match a with | ⟨0, _⟩ => rfl | ⟨1, _⟩ => rfl)

/-- The reference's result is the distance matrix. -/
theorem ref_eq (x0 x1 : (⟨S8192x1024, .f32⟩ : BufTy).Contents (Elt Ideal)) :
    val_main_v12 (F := Ideal) x0 x1 = dist x0 x1 := by
  funext i
  rw [val_main_v12_apply, val_main_v11_apply, val_main_v10_apply, val_main_cst_1_apply, val_main_v9_apply,
    val_main_v7_apply, val_main_v8_apply, val_main_v4_apply, val_main_v6_apply, val_main_v3_apply, val_main_v5_apply,
    val_main_v2_apply]
  simp only [val_main_v0_apply, val_main_v1_apply, val_main_cst_apply, val_main_cst_0_apply, lidx_eq, ridx_eq, idx3_eq,
    idx5_eq, Ideal.addf_def, Ideal.mulf_def, Ideal.subf_def, Ideal.ofBits_def, Ideal.hostUnary_sqrt_def]
  rfl

end Cert.ReferenceIdeal.RefSpec

end
-- ==== Proof.LibWholeStores.lean ====
/-
  Reading back what whole-buffer stores left.

  A store through the rectangle that is the whole shape at zero offsets replaces everything: whatever was stored before
  it, the buffer then reads as its payload; a load covered by such a store reads the payload;
  and a load of the whole shape reads the contents as they are.
-/
import Idealize.ShloMosaic.Lib.Pipeline.Value
import Idealize.ShloMosaic.Lib.Pipeline.FrameBody

noncomputable section

namespace Cert.WholeStores

open Idealize.ShloMosaic

variable {sig : RefSig} {κ : Kind} {sp : Space} {Val : EltTy → Type} [∀ e, Nonempty (Val e)] {S : Shape} {e : EltTy}

/-- The two zero offsets of a rank-2 shape, however spelt. -/
theorem zero2 : (![0, 0] : Fin 2 → Nat) = fun _ => 0 := by
  funext a
  match a with
  | ⟨0, _⟩ => rfl
  | ⟨1, _⟩ => rfl

/-- After a whole-shape store, last of any stores, the buffer reads as that store's payload. -/
theorem read_writes_whole (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w := by
  rw [View.read_writes_eq_canon v f _ (fun y => ⟨_, List.mem_cons.mpr (Or.inl rfl), View.mem_set_unit_zero h inb y⟩),
    View.canon_cons_unit_zero h inb w L]

/-- A whole-shape load covered by a whole-shape store, last of any stores, reads that store's payload. -/
theorem readCov_whole (v : View sig κ sp S e) {off : Fin S.rank → Nat} (h : off = fun _ => 0)
    (inb : ∀ a, off a + S.size a ≤ S.size a) (w : S.Idx → Val e) (L : List (View.Piece Val S e)) :
    v.readCov (⟨Rect.unit off S.size inb, w⟩ :: L) (Rect.unit off S.size inb).toLoadRect = w := by
  rw [View.readCov_eq_canon_ld v _ _ (fun y => ⟨_, List.mem_cons.mpr (Or.inl rfl), View.mem_set_unit_zero h inb y⟩),
    View.canon_cons_unit_zero h inb w L, View.ld_unit_zero h inb]

/-- A whole-shape load reads the contents as they are. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

end Cert.WholeStores

end
-- ==== Proof.Piece.lean ====
/-
  What one grid point leaves in the output's staging buffer.

  The body loads its four input buffers — the row block of `a`, the square-rooted `b` whole, the column of row sums
  of `a` and the row of row sums of `b` —, and its one store replaces the whole output block. So the block it leaves
  is the body's arithmetic applied to the three blocks loaded whole and to the 512 rows of the square-rooted `b` that
  start at row 512·(second grid coordinate).
-/
import proofs.«170235_j18305150615591_2_alg».proof.Proof.Gen.KernelIdeal.Frame
import proofs.«170235_j18305150615591_2_alg».proof.Proof.LibWholeStores

set_option maxRecDepth 16384

noncomputable section

namespace Cert.KernelIdeal.Piece

open Cert.KernelIdeal Cert.KernelIdeal.Gen
open Idealize.ShloMosaic Idealize.ShloMosaic.TcCoe
open Idealize.SL Idealize.SL.Sem

variable {F : FTy → Type} [FloatOps F]

/-- The 512 rows of the resident array that the body loads at grid coordinates `i`. -/
def rowsAt (i : grid0.Coords) (x1 : Vec F S8192x1024 .bf16) : Vec F S512x1024 .bf16 :=
  View.ld x1 (Rect.unit (s := S8192x1024) (k0_off1 i) S512x1024.size (k0_off1_inb i))

/-- The output block after the body: the body's arithmetic of what it loaded. -/
theorem out_eq (c : Dev nD) (i : grid0.Coords) (arg2 : Memref sig .tc .vmem S512x1024 .f32) (harg2 : arg2.IsWhole) (arg3 : Memref sig .tc .vmem S8192x1024 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole)
    (x0 : Vec F S512x1024 .f32) (x1 : Vec F S8192x1024 .bf16) (x2 : Vec F S512x1 .f32) (x3 : Vec F S1x512 .f32) :
    out0_A_4 c i arg2 harg2 arg3 harg3 arg4 harg4 arg5 harg5 arg6 harg6 x0 x1 x2 x3 = k0_pay1 x0 (rowsAt i x1) x2 x3 := by
  unfold out0_A_4
  rw [View.read_writes_eq_canon _ _ _ (cover0_A_4 c i arg2 harg2 arg3 harg3 arg4 harg4 arg5 harg5 arg6 harg6 x0 x1 x2 x3)]
  unfold kernelRun0_A
  dsimp only
  rw [View.canon_unit_zero Cert.WholeStores.zero2]
  rw [Cert.WholeStores.readAt_whole arg2.view _ Cert.WholeStores.zero2, Cert.WholeStores.readAt_whole arg4.view _ Cert.WholeStores.zero2,
    Cert.WholeStores.readAt_whole arg5.view _ Cert.WholeStores.zero2, View.readAt_eq_ld, harg2.read_unread, harg3.read_unread,
    harg4.read_unread, harg5.read_unread]
  rfl

end Cert.KernelIdeal.Piece

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Payload.lean ====
/-
  The body's arithmetic at one entry of the output block, on the extended reals.

  Entry `(r, s)` of the block is ½ · (u(r) + w(s)) − Σ_k √x(r,k) · y(s,k), where `x` is the loaded row block of `a`,
  `y` the 512 loaded rows of the square-rooted `b` (transposed before the product, so that the product contracts the
  second axis of both), `u` the loaded column of row sums and `w` the loaded row of row sums. The narrowing of √x to
  bf16 is the identity; the product accumulates into the zero splat, so it is the plain inner product.
-/
import proofs.«170235_j18305150615591_2_alg».proof.Proof.Gen.KernelIdeal.Skeleton
import proofs.«170235_j18305150615591_2_alg».proof.Proof.LibMatmulPlain
import proofs.«170235_j18305150615591_2_alg».proof.Proof.LibKeepdims
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen
open Idealize.ShloMosaic Idealize.ShloMosaic.ValueIdx

/-- The body's product has the plain rows-by-columns dimension numbers. -/
theorem dot_plain : dot_S512x1024_S1024x512_S512x512_1_0_0_1_n_n = DotDims.plain 512 1024 512 := rfl

/-- The output block's entry `(r, s)`. -/
theorem pay_apply (x : Vec Ideal S512x1024 .f32) (y : Vec Ideal S512x1024 .bf16) (u : Vec Ideal S512x1 .f32)
    (w : Vec Ideal S1x512 .f32) (r s : Fin 512) :
    k0_pay1 (F := Ideal) x y u w (ix2 r s)
      = Ideal.ofBits .f32 0x3F000000#32 * (u (ix2 r (0 : Fin 1)) + w (ix2 (0 : Fin 1) s))
        - ∑ k : Fin 1024, Ideal.sqrt (x (ix2 r k)) * y (ix2 s k) := by
  unfold k0_pay1
  dsimp only
  rw [subf_apply, mulf_apply, addf_apply, broadcast_apply, shapeCast_self, shapeCast_self, shapeCast_self,
    Cert.Keepdims.broadcastTo_a1_ab_apply, broadcastTo_1b_ab_apply, dot_plain,
    Cert.LibMatmulPlain.matmul_plain_zero_apply]
  refine congrArg (_ - ·) (Finset.sum_congr rfl fun k _ => ?_)
  rw [transpose_ix2_apply]
  rfl

end Cert.KernelIdeal.Payload

end
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«170235_j18305150615591_2_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.Prefix.lean ====
/-
  What the host operations before the kernel launch leave in the three arrays the kernel's windows stage besides `a`
  itself, read at an entry:

  * the column of row sums of `a`, entry `(p, 0)`: the sum of row `p` of `a` from the zero word;
  * the row of row sums of `b` (a column reshaped to one row), entry `(0, q)`: the sum of row `q` of `b`;
  * the square-rooted `b` narrowed to bf16, entry `(q, k)`: the square root of `b(q, k)` — the narrowing is the
    identity on the extended reals.
-/
import proofs.«170235_j18305150615591_2_alg».proof.Proof.Gen.KernelIdeal.Frame
import proofs.«170235_j18305150615591_2_alg».proof.Proof.LibRowOps
import proofs.«170235_j18305150615591_2_alg».proof.Proof.Spec
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.Prefix

open Cert.KernelIdeal Cert.KernelIdeal.Gen Cert.Hellinger
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- The column of row sums of `a` as the launch finds it, at row `p`. -/
theorem colsum_apply (c : Dev nD) (p : Fin 8192) :
    (V m c main_v1 : S8192x1.Idx → EReal) (ix2 p (0 : Fin 1)) = rowSum (m ((c : Thread nD τ).loc main_arg0)) p := by
  have e : (V m c main_v1 : S8192x1.Idx → EReal)
      = broadcastInDim S8192x1 ![0] bcast_S8192_S8192x1_0
          (Host.reduceAdd (m ((c : Thread nD τ).loc main_arg0)) (constant (F := Ideal) S_ .f32 0x00000000#32)
            reducesTo_S8192x1024_S8192_d1 h_S_) := by
    dsimp only [Gen.V, Gen.hostOps0]; after_results
  rw [e, broadcastInDim_apply ![0] bcast_S8192_S8192x1_0 _ (ix2 p (0 : Fin 1)) (ix1 p) (fun a => match a with
    | ⟨0, _⟩ => by show p.val = if (8192 : Nat) = 1 then 0 else p.val; rw [if_neg (by decide)])]
  exact Cert.LibRowOps.host_rowsum_apply _ _ reducesTo_S8192x1024_S8192_d1 (by decide) h_S_ p

/-- The row of row sums of `b` as the launch finds it, at column `q`. -/
theorem rowsum_apply (c : Dev nD) (q : Fin 8192) :
    (V m c main_v4 : S1x8192.Idx → EReal) (ix2 (0 : Fin 1) q) = rowSum (m ((c : Thread nD τ).loc main_arg1)) q := by
  have e : (V m c main_v4 : S1x8192.Idx → EReal)
      = shapeCast S1x8192 (broadcastInDim S8192x1 ![0] bcast_S8192_S8192x1_0
          (Host.reduceAdd (m ((c : Thread nD τ).loc main_arg1)) (constant (F := Ideal) S_ .f32 0x00000000#32)
            reducesTo_S8192x1024_S8192_d1 h_S_)) shapeCasts_S8192x1_S1x8192 := by
    dsimp only [Gen.V, Gen.hostOps0]; after_results; rfl
  rw [e, shapeCast_apply _ shapeCasts_S8192x1_S1x8192 (ix2 (0 : Fin 1) q) (ix2 q (0 : Fin 1)) (by
      rw [Shape.rowMajor_val_two, Shape.rowMajor_val_two]
      show q.val * 1 + 0 = 0 * 8192 + q.val
      omega),
    broadcastInDim_apply ![0] bcast_S8192_S8192x1_0 _ (ix2 q (0 : Fin 1)) (ix1 q) (fun a => match a with
    | ⟨0, _⟩ => by show q.val = if (8192 : Nat) = 1 then 0 else q.val; rw [if_neg (by decide)])]
  exact Cert.LibRowOps.host_rowsum_apply _ _ reducesTo_S8192x1024_S8192_d1 (by decide) h_S_ q

/-- The square-rooted `b` as the launch finds it, at any entry. -/
theorem sqrtb_apply (c : Dev nD) (j : S8192x1024.Idx) :
    (V m c main_v6 : S8192x1024.Idx → EReal) j = Ideal.sqrt (m ((c : Thread nD τ).loc main_arg1) j) := by
  have e : (V m c main_v6 : S8192x1024.Idx → EReal)
      = (truncf .bf16 (Host.sqrt (m ((c : Thread nD τ).loc main_arg1))) bitsLt_bf16_f32 : FVec Ideal S8192x1024 .bf16) := by
    dsimp only [Gen.V, Gen.hostOps0]; after_results
  rw [e]
  rfl

end Cert.KernelIdeal.Prefix

end
-- ==== Proof.Grid.lean ====
/-
  Where each window's block sits at a grid point. The grid is 16 × 16 and point `t` has coordinates
  `(t / 16, t % 16)`: the blocks of `a` and of its column of row sums follow the first coordinate, the row of row sums
  of `b` follows the second, the output block follows both, and the square-rooted `b` is one block for all points.
-/
import proofs.«170235_j18305150615591_2_alg».proof.Proof.Gen.KernelIdeal.Frame

noncomputable section

namespace Cert.KernelIdeal.Grid

open Cert.KernelIdeal Cert.KernelIdeal.Gen
open Idealize.ShloMosaic

/-- The block indices of the five windows and the second grid coordinate at every point, decided over the 256 points. -/
theorem idx_facts : ∀ t : Fin cfg0.N,
    win0_0.index t (0 : Fin 2) = t.val / 16 ∧ win0_0.index t (1 : Fin 2) = 0
    ∧ win0_1.index t (0 : Fin 2) = 0 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = t.val % 16
    ∧ ((grid0.coords t) 1).val = t.val % 16 :=
  (by decide +kernel : ∀ t : Fin grid0.N, _)

end Cert.KernelIdeal.Grid

end
-- ==== Proof.Blocks.lean ====
/-
  From the blocks to the whole array.

  At grid point `t = 16·i + j` the body receives rows `512·i …` of `a` and of its column of row sums, columns
  `512·j …` of the row of row sums of `b`, and — by its own offset into the resident array — rows `512·j …` of
  the square-rooted `b`. So entry `(r, s)` of the block it writes back is entry `(512·i + r, 512·j + s)` of the
  distance matrix: what point `t` writes is block `t` of that one matrix. The 256 blocks tile the 8192 × 8192 result,
  so after the launch the result array is the distance matrix of the launch-time inputs.
-/
import proofs.«170235_j18305150615591_2_alg».proof.Proof.Gen.KernelIdeal.Value
import proofs.«170235_j18305150615591_2_alg».proof.Proof.Piece
import proofs.«170235_j18305150615591_2_alg».proof.Proof.Payload
import proofs.«170235_j18305150615591_2_alg».proof.Proof.Prefix
import proofs.«170235_j18305150615591_2_alg».proof.Proof.Grid
import proofs.«170235_j18305150615591_2_alg».proof.Proof.Spec
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Cert.Hellinger
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem lt256 (t : Fin cfg0.N) : t.val < 256 := N_0 ▸ t.isLt

/-- The array row that row `r` of a row block is at point `t`, and the array column (or row of `b`) that column `s` is. -/
def rowOf (t : Fin cfg0.N) (r : Fin 512) : Fin 8192 :=
  ⟨512 * (t.val / 16) + r.val, by have := lt256 t; have := r.isLt; omega⟩
def colOf (t : Fin cfg0.N) (s : Fin 512) : Fin 8192 :=
  ⟨512 * (t.val % 16) + s.val, by have := lt256 t; have := s.isLt; omega⟩

/-! ## Where a block's entry sits in its array -/

theorem emb0 (t : Fin cfg0.N) (r : Fin 512) (k : Fin 1024) :
    ((cfg0.win 0).blk t).view.emb (ix2 r k) = ix2 (rowOf t r) k := by
  obtain ⟨e0, e1, -⟩ := Grid.idx_facts t
  funext a; apply Fin.ext
  match a with
  | ⟨0, _⟩ => show win0_0.index t (0 : Fin 2) * 512 + 1 * r.val = 512 * (t.val / 16) + r.val; omega
  | ⟨1, _⟩ => show win0_0.index t (1 : Fin 2) * 1024 + 1 * k.val = k.val; omega

theorem emb1 (t : Fin cfg0.N) (q : Fin 8192) (k : Fin 1024) :
    ((cfg0.win 1).blk t).view.emb (ix2 q k) = ix2 q k := by
  obtain ⟨-, -, e0, e1, -⟩ := Grid.idx_facts t
  funext a; apply Fin.ext
  match a with
  | ⟨0, _⟩ => show win0_1.index t (0 : Fin 2) * 8192 + 1 * q.val = q.val; omega
  | ⟨1, _⟩ => show win0_1.index t (1 : Fin 2) * 1024 + 1 * k.val = k.val; omega

theorem emb2 (t : Fin cfg0.N) (r : Fin 512) :
    ((cfg0.win 2).blk t).view.emb (ix2 r (0 : Fin 1)) = ix2 (rowOf t r) (0 : Fin 1) := by
  obtain ⟨-, -, -, -, e0, e1, -⟩ := Grid.idx_facts t
  funext a; apply Fin.ext
  match a with
  | ⟨0, _⟩ => show win0_2.index t (0 : Fin 2) * 512 + 1 * r.val = 512 * (t.val / 16) + r.val; omega
  | ⟨1, _⟩ => show win0_2.index t (1 : Fin 2) * 1 + 1 * 0 = 0; omega

theorem emb3 (t : Fin cfg0.N) (s : Fin 512) :
    ((cfg0.win 3).blk t).view.emb (ix2 (0 : Fin 1) s) = ix2 (0 : Fin 1) (colOf t s) := by
  obtain ⟨-, -, -, -, -, -, e0, e1, -⟩ := Grid.idx_facts t
  funext a; apply Fin.ext
  match a with
  | ⟨0, _⟩ => show win0_3.index t (0 : Fin 2) * 1 + 1 * 0 = 0; omega
  | ⟨1, _⟩ => show win0_3.index t (1 : Fin 2) * 512 + 1 * s.val = 512 * (t.val % 16) + s.val; omega

theorem emb4 (t : Fin cfg0.N) (r s : Fin 512) :
    ((cfg0.win 4).blk t).view.emb (ix2 r s) = ix2 (rowOf t r) (colOf t s) := by
  obtain ⟨-, -, -, -, -, -, -, -, e0, e1, -⟩ := Grid.idx_facts t
  funext a; apply Fin.ext
  match a with
  | ⟨0, _⟩ => show win0_4.index t (0 : Fin 2) * 512 + 1 * r.val = 512 * (t.val / 16) + r.val; omega
  | ⟨1, _⟩ => show win0_4.index t (1 : Fin 2) * 512 + 1 * s.val = 512 * (t.val % 16) + s.val; omega

/-- Row `s` of the 512 rows the body loads from the resident array at point `t` is row `512·(t % 16) + s`. -/
theorem rows_emb (t : Fin cfg0.N) (s : Fin 512) (k : Fin 1024) :
    (Rect.unit (s := S8192x1024) (k0_off1 (grid0.coords t)) S512x1024.size (k0_off1_inb (grid0.coords t))).emb (ix2 s k)
      = ix2 (colOf t s) k := by
  obtain ⟨-, -, -, -, -, -, -, -, -, -, eg⟩ := Grid.idx_facts t
  have h0 : k0_off1 (grid0.coords t) 0 = 512 * ((grid0.coords t) 1).val := congrFun (k0_off1_eq (grid0.coords t)) 0
  have h1 : k0_off1 (grid0.coords t) 1 = 0 := congrFun (k0_off1_eq (grid0.coords t)) 1
  funext a; apply Fin.ext
  match a with
  | ⟨0, _⟩ => show k0_off1 (grid0.coords t) 0 + 1 * s.val = 512 * (t.val % 16) + s.val; omega
  | ⟨1, _⟩ => show k0_off1 (grid0.coords t) 1 + 1 * k.val = k.val; omega

/-! ## The input blocks at an entry -/

theorem blk0_apply (c : Dev nD) (t : Fin cfg0.N) (r : Fin 512) (k : Fin 1024) :
    iblk m c 0 t (ix2 r k) = m ((c : Thread nD τ).loc main_arg0) (ix2 (rowOf t r) k) := by
  show V m c main_arg0 (((cfg0.win 0).blk t).view.emb (ix2 r k)) = _
  rw [emb0, V_main_arg0]

theorem blk1_apply (c : Dev nD) (t : Fin cfg0.N) (s : Fin 512) (k : Fin 1024) :
    Piece.rowsAt (grid0.coords t) (iblk m c 1 t) (ix2 s k)
      = Ideal.sqrt (m ((c : Thread nD τ).loc main_arg1) (ix2 (colOf t s) k)) := by
  show V m c main_v6 (((cfg0.win 1).blk t).view.emb
    ((Rect.unit (s := S8192x1024) (k0_off1 (grid0.coords t)) S512x1024.size (k0_off1_inb (grid0.coords t))).emb (ix2 s k))) = _
  rw [rows_emb, emb1]
  exact Prefix.sqrtb_apply m c _

theorem blk2_apply (c : Dev nD) (t : Fin cfg0.N) (r : Fin 512) :
    iblk m c 2 t (ix2 r (0 : Fin 1)) = rowSum (m ((c : Thread nD τ).loc main_arg0)) (rowOf t r) := by
  show V m c main_v1 (((cfg0.win 2).blk t).view.emb (ix2 r (0 : Fin 1))) = _
  rw [emb2]
  exact Prefix.colsum_apply m c _

theorem blk3_apply (c : Dev nD) (t : Fin cfg0.N) (s : Fin 512) :
    iblk m c 3 t (ix2 (0 : Fin 1) s) = rowSum (m ((c : Thread nD τ).loc main_arg1)) (colOf t s) := by
  show V m c main_v4 (((cfg0.win 3).blk t).view.emb (ix2 (0 : Fin 1) s)) = _
  rw [emb3]
  exact Prefix.rowsum_apply m c _

/-! ## What a point writes back, the cover, and the array after the launch -/

/-- What point `t` writes back is block `t` of the distance matrix of the launch-time inputs. -/
theorem flushed_eq (c : Dev nD) (t : Fin cfg0.N) :
    (dats m 0 c).flushed 4 t = ((cfg0.win 4).blk t).view.read (Elt Ideal)
      (dist (m ((c : Thread nD τ).loc main_arg0)) (m ((c : Thread nD τ).loc main_arg1))) := by
  rw [Value.flushed4_A, Piece.out_eq]
  funext j
  obtain ⟨r, s, rfl⟩ : ∃ (r s : Fin 512), j = ix2 r s := ⟨j 0, j 1, eq_ix2 j⟩
  show k0_pay1 (F := Ideal) (iblk m c 0 t) (Piece.rowsAt (grid0.coords t) (iblk m c 1 t)) (iblk m c 2 t) (iblk m c 3 t) (ix2 r s)
    = dist (m ((c : Thread nD τ).loc main_arg0)) (m ((c : Thread nD τ).loc main_arg1)) (((cfg0.win 4).blk t).view.emb (ix2 r s))
  rw [emb4, dist_ix2]
  refine (Payload.pay_apply (iblk m c 0 t) (Piece.rowsAt (grid0.coords t) (iblk m c 1 t)) (iblk m c 2 t) (iblk m c 3 t) r s).trans ?_
  unfold entry cross
  rw [blk2_apply, blk3_apply]
  refine congrArg (_ - ·) (Finset.sum_congr rfl fun k _ => ?_)
  rw [blk0_apply, blk1_apply]

/-- An index of the result is in point `t`'s block iff each coordinate is in the block's range on its axis. -/
theorem mem_blk (t : Fin cfg0.N) (i : S8192x8192.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v7).slice (win0_4.rect t)).set ↔ _
  rw [View.set_slice_whole, Rect.mem_set_unit]
  exact Iff.rfl

/-- Every entry `(p, q)` of the result is in the block of the point `16·(p / 512) + q / 512`. -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  let t : Fin cfg0.N := ⟨16 * ((i 0).val / 512) + (i 1).val / 512, by rw [show cfg0.N = 256 from N_0]; omega⟩
  obtain ⟨-, -, -, -, -, -, -, -, e0, e1, -⟩ := Grid.idx_facts t
  have ht : t.val = 16 * ((i 0).val / 512) + (i 1).val / 512 := rfl
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- The result array after the launch is the distance matrix of the launch-time inputs. -/
theorem final (c : Dev nD) :
    (dats m 0 c).arrAt 4 cfg0.N = dist (m ((c : Thread nD τ).loc main_arg0)) (m ((c : Thread nD τ).loc main_arg1)) :=
  (dats m 0 c).arrAt_eq_of_cover 4 _ (fun t _ => flushed_eq m c t) cover

/-- Every weakly fair execution of the kernel's program ends with the result at the distance matrix and the inputs as launched. -/
theorem run : θ_run defs (onTc (τ := τ) (main (F := Ideal))) ⟨m, fun _ => 0, ρ⟩ fun r => ∀ c : Dev nD,
      r.2.mem ((c : Thread nD τ).loc main_v7) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Blocks

end
-- ==== Proof.lean ====
/-
  A distance matrix between two families of 8192 nonnegative-looking rows of length 1024,

      D(p, q) = ½ · (Σ_k a(p,k) + Σ_k b(q,k)) − Σ_k √a(p,k) · √b(q,k),

  computed two ways. The reference forms the row sums and the 8192 × 8192 contraction of the square-rooted inputs on the
  host. The kernel's program forms the row sums and √b on the host, and then a 16 × 16 grid of kernel launches each
  writes one 512 × 512 block: the block's rows of `a` are square-rooted in the kernel and multiplied with the block's 512
  rows of the resident √b (transposed), and the halved sum of the two broadcast row sums has that product subtracted.

  On the extended reals every operation is exact and a change of float format is the identity, so both programs compute
  the same expression entry by entry: a sum over `k` of the same 1024 terms, the same two row sums from the same zero
  word, the same word for ½. Nothing is rearranged across an infinity, so the precondition is never opened.

  * `Spec`     — the matrix `D` as one function of the two arrays.
  * `RefSpec`  — the reference's result is `D`.
  * `Piece`    — what one grid point leaves in the output's staging buffer: the body's arithmetic of what it loaded.
  * `Payload`  — that arithmetic at one entry.
  * `Prefix`   — the host-computed row sums and √b, at one entry.
  * `Grid`     — where each window's block sits at a grid point.
  * `Blocks`   — each point writes block `t` of `D`; the blocks tile the result; so the kernel's result is `D`.
  The three frame claims are the generated ones (the reference's is its generated run with the result dropped), and the
  kernel's idealization rewrote nothing.
-/
import proofs.«170235_j18305150615591_2_alg».proof.Defs
import proofs.«170235_j18305150615591_2_alg».proof.Proof.Gen.Kernel
import proofs.«170235_j18305150615591_2_alg».proof.Proof.Gen.Kernel.Skeleton
import proofs.«170235_j18305150615591_2_alg».proof.Proof.Gen.Kernel.Launch
import proofs.«170235_j18305150615591_2_alg».proof.Proof.Gen.Kernel.Points
import proofs.«170235_j18305150615591_2_alg».proof.Proof.Gen.Kernel.Frame
import proofs.«170235_j18305150615591_2_alg».proof.Proof.Gen.KernelIdeal
import proofs.«170235_j18305150615591_2_alg».proof.Proof.Gen.KernelIdeal.Skeleton
import proofs.«170235_j18305150615591_2_alg».proof.Proof.Gen.KernelIdeal.Launch
import proofs.«170235_j18305150615591_2_alg».proof.Proof.Gen.KernelIdeal.Points
import proofs.«170235_j18305150615591_2_alg».proof.Proof.Gen.KernelIdeal.Frame
import proofs.«170235_j18305150615591_2_alg».proof.Proof.Gen.ReferenceIdeal
import proofs.«170235_j18305150615591_2_alg».proof.Proof.Gen.Pre_finite_inputs
import proofs.«170235_j18305150615591_2_alg».proof.Proof.Gen.KernelIdeal.Value
import proofs.«170235_j18305150615591_2_alg».proof.Proof.Gen.ReferenceIdeal.Run
import proofs.«170235_j18305150615591_2_alg».proof.Proof.Gen.ReferenceIdeal.Read
import proofs.«170235_j18305150615591_2_alg».proof.Proof.RefSpec
import proofs.«170235_j18305150615591_2_alg».proof.Proof.Blocks
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From inputs that agree, the kernel's program ends with its result at the distance matrix of its inputs, and the
    reference ends with its result at the same matrix of the same inputs. -/
theorem algebraic : Cert.algebraic_KernelIdeal_ReferenceIdeal := by
  intro m ρ m' ρ' _ hagree
  refine ⟨fun c => Cert.Hellinger.dist (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefSpec.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
